-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S2048x1024 : Shape := ⟨2, ![2048, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S2048x1024 .f32) (main_arg8 : FVec F S1024 .f32) (main_arg9 : FVec F S2048x1024 .f32) (main_arg10 : FVec F S1024 .f32) (main_v33 : IVec S_ 1) : IVec S_ 1 :=
  let main_v34 : FVec F S2048x1024 .f32 := Host.absf main_arg7
  let main_cst_12 : FVec F S_ .f32 := constant S_ .f32 0x7F800000#32
  let main_v35 : FVec F S2048x1024 .f32 := broadcastInDim S2048x1024 ![] bcast_S_S2048x1024 main_cst_12
  let main_v36 : IVec S2048x1024 1 := cmpf .olt main_v34 main_v35
  let main_c_13 : IVec S_ 1 := constantI S_ 1 1#1
  let main_v37 : IVec S_ 1 := (fun x v => Host.reduce IntOp.andi x v reducesTo_S2048x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S2048x1024 .f32 := Host.absf main_arg9
  let main_cst_16 : FVec F S_ .f32 := constant S_ .f32 0x7F800000#32
  let main_v45 : FVec F S2048x1024 .f32 := broadcastInDim S2048x1024 ![] bcast_S_S2048x1024 main_cst_16
  let main_v46 : IVec S2048x1024 1 := cmpf .olt main_v44 main_v45
  let main_c_17 : IVec S_ 1 := constantI S_ 1 1#1
  let main_v47 : IVec S_ 1 := (fun x v => Host.reduce IntOp.andi x v reducesTo_S2048x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x1024 .f32) (main_arg1 : FVec F S8192x1024 .f32) (main_arg2 : FVec F S8192x1024 .f32) (main_arg3 : FVec F S2048x1024 .f32) (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_arg6 main_arg7 main_arg8 main_arg9 main_arg10 main_v13 main_v16
-- ==== Kernel.lean ====
abbrev S8192x1024 : Shape := ⟨2, ![8192, 1024]⟩
abbrev S2048x1024 : Shape := ⟨2, ![2048, 1024]⟩
abbrev S1024 : Shape := ⟨1, ![1024]⟩
abbrev S2048x4096 : Shape := ⟨2, ![2048, 4096]⟩
abbrev S4096 : Shape := ⟨1, ![4096]⟩
abbrev S1x4096 : Shape := ⟨2, ![1, 4096]⟩
abbrev S256x1024 : Shape := ⟨2, ![256, 1024]⟩
abbrev S256x2048 : Shape := ⟨2, ![256, 2048]⟩
abbrev S256x4096 : Shape := ⟨2, ![256, 4096]⟩

abbrev nBuf : Space → Nat
  | .hbm => 17
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S2048x4096, .f32⟩
  | .hbm, ⟨12, _⟩ => ⟨S2048x4096, .bf16⟩
  | .hbm, ⟨13, _⟩ => ⟨S4096, .f32⟩
  | .hbm, ⟨14, _⟩ => ⟨S1x4096, .f32⟩
  | .hbm, ⟨15, _⟩ => ⟨S8192x1024, .f32⟩
  | .hbm, ⟨16, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S2048x4096, .bf16⟩
  | .local _ .vmem, ⟨7, _⟩ => ⟨S1x4096, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  concatenates_S2048x1024_S2048x1024_S2048x1024_S2048x1024_S2048x4096_d1 : Shape.Concatenates [S2048x1024, S2048x1024, S2048x1024, S2048x1024] S2048x4096 1
  bitsLt_bf16_f32 : FTy.bits .bf16 < FTy.bits .f32
  concatenates_S1024_S1024_S1024_S1024_S4096_d0 : Shape.Concatenates [S1024, S1024, S1024, S1024] S4096 0
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  concatenates_S256x1024_S256x1024_S256x2048_d1 : Shape.Concatenates [S256x1024, S256x1024] S256x2048 1
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x2048_S2048x4096_S256x4096_1_0_0_1_n_n_wf : DotDims.WF S256x2048 S2048x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x4096.size a ≤ S2048x4096.size a
  hwx0_3 : ∀ i : grid0.Coords, EltTy.bits .bf16 = 32 ∨ (Rect.block (s := S2048x4096) S2048x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S8192x1024.size a
  hwx0_5 : ∀ i : grid0.Coords, EltTy.bits .f32 = 32 ∨ (Rect.block (s := S8192x1024) S256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x1024.size a
  hwx0_6 : ∀ i : grid0.Coords, EltTy.bits .f32 = 32 ∨ (Rect.block (s := S8192x1024) S256x1024.size (cc0_transform_6 i) (hinb0_6 i)).WholeWords (EltTy.packing .f32)

variable [Facts₀]

def dot_S256x2048_S2048x4096_S256x4096_1_0_0_1_n_n : DotDims S256x2048 S2048x4096 S256x4096 where
  lhsContracting := [1]
  rhsContracting := [0]
  lhsNonContracting := [0]
  rhsNonContracting := [1]
  lhsBatch := []
  rhsBatch := []
  wf := dot_S256x2048_S2048x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S256x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S2048x1024 : Shape := ⟨2, ![2048, 1024]⟩
abbrev S1024 : Shape := ⟨1, ![1024]⟩
abbrev S8192x2048 : Shape := ⟨2, ![8192, 2048]⟩
abbrev S1x1024 : Shape := ⟨2, ![1, 1024]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S8192x2048, .f32⟩
  | .hbm, ⟨12, _⟩ => ⟨S8192x1024, .f32⟩
  | .hbm, ⟨13, _⟩ => ⟨S1x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]

class Facts₀ : Prop where
  concatenates_S8192x1024_S8192x1024_S8192x2048_d1 : Shape.Concatenates [S8192x1024, S8192x1024] S8192x2048 1
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  dot_S8192x2048_S2048x1024_S8192x1024_1_0_0_1_n_n_wf : DotDims.WF S8192x2048 S2048x1024 S8192x1024 [1] [0] [0] [1] [] []

variable [Facts₀]

def dot_S8192x2048_S2048x1024_S8192x1024_1_0_0_1_n_n : DotDims S8192x2048 S2048x1024 S8192x1024 where
  lhsContracting := [1]
  rhsContracting := [0]
  lhsNonContracting := [0]
  rhsNonContracting := [1]
  lhsBatch := []
  rhsBatch := []
  wf := dot_S8192x2048_S2048x1024_S8192x1024_1_0_0_1_n_n_wf

class Facts : Prop extends Facts₀ where

variable [Facts]
-- ==== Proof.CellBits.lean ====
/-
  The region of `Kernel` as a run: four host operations build the fused weight matrix (the four gate matrices side
  by side, narrowed to bf16) and the fused bias row (the four gate biases end to end, as a one-row matrix); then one
  kernel is launched at 32 grid points. Point `t` is handed rows `256 t … 256 t + 255` of the three activation
  arrays, the whole fused weight and the whole fused bias, and writes rows `256 t … 256 t + 255` of the two results.
  The body reads its five input blocks whole, reads (and ignores) what its two output blocks held, and overwrites
  both output blocks whole: the new hidden state (the first result) and the new cell state (the second), each one pure
  function of the five input blocks. This file states that function per point, proves the body's triple, and runs the launch: every weakly
  fair execution terminates without a fault, each result array ends at the blocks the points wrote back, and every
  argument array ends as it began. Everything is stated at any float instance `F`.
-/
import proofs.«125467_j9517647528292_2_alg».proof.Proof.Gen.Kernel.Launch
import proofs.«125467_j9517647528292_2_alg».proof.Proof.Gen.Kernel.Skeleton
import proofs.«125467_j9517647528292_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the kernel finds them -/

/-- Core `c`'s buffers when the kernel is launched: the launch memory after the four host operations. -/
abbrev V (c : Dev nD) (b : Ref sig .tc) : Buf (Elt F) ((c : Thread nD τ).loc b) := StableHlo.after hostOps0 (fun b => m (c, b)) b

/-- No host operation allocates anything. -/
theorem hostOps0_fresh : (hostOps0 : List (HloOp τ sig (Elt F))).Forall fun op => op.fresh = ∅ := by
  simp only [List.Forall]; repeat' constructor

/-- The program is its host operations followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer none of the four host operations writes is found as launched. The four written buffers are the fused
    weight in f32 and in bf16 and the fused bias as a vector and as a row. -/
theorem V_unwritten (c : Dev nD) (b : Ref sig .tc) (h0 : b ≠ main_v0) (h1 : b ≠ main_v1) (h2 : b ≠ main_v2) (h3 : b ≠ main_v3) :
    V m c b = m ((c : Thread nD τ).loc b) :=
  StableHlo.after_of_forall_not_mem (b := Proc.devRef .tc b) _ _ (List.forall_iff_forall_mem.mp (by
    simp only [hostOps0, List.Forall, StableHlo.unary_writes, StableHlo.reshape_writes, StableHlo.nary_writes, Finset.mem_singleton]
    exact ⟨StableHlo.devRef_ne_of_ne h0, StableHlo.devRef_ne_of_ne h1, StableHlo.devRef_ne_of_ne h2, StableHlo.devRef_ne_of_ne h3⟩))

theorem V_main_arg0 (c : Dev nD) : V m c main_arg0 = m ((c : Thread nD τ).loc main_arg0) := V_unwritten m c _ (by decide) (by decide) (by decide) (by decide)
theorem V_main_arg1 (c : Dev nD) : V m c main_arg1 = m ((c : Thread nD τ).loc main_arg1) := V_unwritten m c _ (by decide) (by decide) (by decide) (by decide)
theorem V_main_arg2 (c : Dev nD) : V m c main_arg2 = m ((c : Thread nD τ).loc main_arg2) := V_unwritten m c _ (by decide) (by decide) (by decide) (by decide)
theorem V_main_arg3 (c : Dev nD) : V m c main_arg3 = m ((c : Thread nD τ).loc main_arg3) := V_unwritten m c _ (by decide) (by decide) (by decide) (by decide)
theorem V_main_arg4 (c : Dev nD) : V m c main_arg4 = m ((c : Thread nD τ).loc main_arg4) := V_unwritten m c _ (by decide) (by decide) (by decide) (by decide)
theorem V_main_arg5 (c : Dev nD) : V m c main_arg5 = m ((c : Thread nD τ).loc main_arg5) := V_unwritten m c _ (by decide) (by decide) (by decide) (by decide)
theorem V_main_arg6 (c : Dev nD) : V m c main_arg6 = m ((c : Thread nD τ).loc main_arg6) := V_unwritten m c _ (by decide) (by decide) (by decide) (by decide)
theorem V_main_arg7 (c : Dev nD) : V m c main_arg7 = m ((c : Thread nD τ).loc main_arg7) := V_unwritten m c _ (by decide) (by decide) (by decide) (by decide)
theorem V_main_arg8 (c : Dev nD) : V m c main_arg8 = m ((c : Thread nD τ).loc main_arg8) := V_unwritten m c _ (by decide) (by decide) (by decide) (by decide)
theorem V_main_arg9 (c : Dev nD) : V m c main_arg9 = m ((c : Thread nD τ).loc main_arg9) := V_unwritten m c _ (by decide) (by decide) (by decide) (by decide)
theorem V_main_arg10 (c : Dev nD) : V m c main_arg10 = m ((c : Thread nD τ).loc main_arg10) := V_unwritten m c _ (by decide) (by decide) (by decide) (by decide)

/-! ## A window's block at a point -/

/-- Window `w`'s block at point `t`: the part of its array (as the kernel finds it) the point is handed. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's buffer holds its block at every point — whether the block was fetched at that point or is the
    one fetched earlier (the weight and the bias are fetched once, at the first point, and their block never moves).
    One statement per input window. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in its two output blocks -/

abbrev rAct : Rect S256x1024 := Rect.unit (s := S256x1024) ![0, 0] S256x1024.size inb_S256x1024_S256x1024_0_0
abbrev rWgt : Rect S2048x4096 := Rect.unit (s := S2048x4096) ![0, 0] S2048x4096.size inb_S2048x4096_S2048x4096_0_0
abbrev rBias : Rect S1x4096 := Rect.unit (s := S1x4096) ![0, 0] S1x4096.size inb_S1x4096_S1x4096_0_0

/-- The new hidden state's block, from the five input blocks: the one whole-block store of the body. -/
def outH (x0 x1 x2 : Vec F S256x1024 .f32) (x3 : Vec F S2048x4096 .bf16) (x4 : Vec F S1x4096 .f32) : Vec F S256x1024 .f32 :=
  View.canon [⟨rAct, k0_pay3 (View.ld x0 rAct) (View.ld x1 rAct) (View.ld x2 rAct) (View.ld x3 rWgt) (View.ld x4 rBias)⟩]

/-- The new cell state's block, from the five input blocks. -/
def outC (x0 x1 x2 : Vec F S256x1024 .f32) (x3 : Vec F S2048x4096 .bf16) (x4 : Vec F S1x4096 .f32) : Vec F S256x1024 .f32 :=
  View.canon [⟨rAct, k0_pay2 (View.ld x0 rAct) (View.ld x1 rAct) (View.ld x2 rAct) (View.ld x3 rWgt) (View.ld x4 rBias)⟩]

/-- One whole-block store covers the block. -/
theorem cover_act (p0 : Vec F S256x1024 .f32) (y : S256x1024.Idx) :
    ∃ pc ∈ ([⟨rAct, p0⟩] : List (View.Piece (Elt F) S256x1024 .f32)), y ∈ pc.1.set :=
  View.cover_of_tiled [⟨rAct, p0⟩] S256x1024.size (by rfl) y

/-! ## The body's triple -/

set_option maxHeartbeats 1000000 in
/-- The body, on seven whole buffers — the five inputs at contents `x0 … x4`, the two outputs at anything — runs to
    its end with the inputs as they were and the outputs at `outH` and `outC` of the inputs. -/
theorem sound_kernel (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S2048x4096 .bf16) (harg4 : arg4.IsWhole)
    (arg5 : Memref sig .tc .vmem S1x4096 .f32) (harg5 : arg5.IsWhole) (arg6 : Memref sig .tc .vmem S256x1024 .f32) (harg6 : arg6.IsWhole)
    (arg7 : Memref sig .tc .vmem S256x1024 .f32) (harg7 : arg7.IsWhole)
    (x0 x1 x2 : Vec F S256x1024 .f32) (x3 : Vec F S2048x4096 .bf16) (x4 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outH x0 x1 x2 x3 x4) ∗ owns (c : Thread nD τ) arg7 fullShare (outC x0 x1 x2 x3 x4)) -∗ K ⟨⟩))
      ⊢ wp frame (wpE (defs₀ (F := F)) Variants.none c none) E (cc0__lstm_kernel i arg1 harg1 arg2 harg2 arg3 harg3 arg4 harg4 arg5 harg5 arg6 harg6 arg7 harg7) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_act _)
  iexists _; isplitr
  swap; · iexact H6
  ipureintro
  exact View.read_writes_eq_canon _ _ _ (cover_act _)

/-! ## The launch's proof data -/

/-- After the body at point `t`: each input's buffer at its block, the hidden-state output at `outH` and the
    cell-state output at `outC` of the five input blocks. The arrays are the ones the kernel finds. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outH (iblk m c 0 t) (iblk m c 1 t) (iblk m c 2 t) (iblk m c 3 t) (iblk m c 4 t)
    | ⟨6, _⟩ => outC (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outH (iblk m c 0 t) (iblk m c 1 t) (iblk m c 2 t) (iblk m c 3 t) (iblk m c 4 t) := by dsimp only [dats]
theorem after0_6 (c : Dev nD) (t : Fin cfg0.N) : (dats m 0 c).after 6 t = outC (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before_in0_of m (dats m 0 c) (A_eq m c 0) (after0_0 m c) t d
theorem before0_1 (c : Dev nD) (t : Fin cfg0.N) (d) : (dats m 0 c).before 1 t d = iblk m c 1 t :=
  before_in1_of m (dats m 0 c) (A_eq m c 1) (after0_1 m c) t d
theorem before0_2 (c : Dev nD) (t : Fin cfg0.N) (d) : (dats m 0 c).before 2 t d = iblk m c 2 t :=
  before_in2_of m (dats m 0 c) (A_eq m c 2) (after0_2 m c) t d
theorem before0_3 (c : Dev nD) (t : Fin cfg0.N) (d) : (dats m 0 c).before 3 t d = iblk m c 3 t :=
  before_in3_of m (dats m 0 c) (A_eq m c 3) (after0_3 m c) t d
theorem before0_4 (c : Dev nD) (t : Fin cfg0.N) (d) : (dats m 0 c).before 4 t d = iblk m c 4 t :=
  before_in4_of m (dats m 0 c) (A_eq m c 4) (after0_4 m c) t d

/-! ## The body at a generic point -/

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates without a fault; each array a window stages ends at what
    the write-backs left of it, every other array as the kernel found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- After the run the eleven argument arrays are as they began: three are staged inputs, never written back; eight are
    staged by no window and written by no host operation. -/
theorem kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c)⟩

/-- The program runs to its end without a fault and its eleven argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => kept m r h c) (run_main m ρ)

end Cert.Kernel.Cell

end
-- ==== Proof.CellIdeal.lean ====
/-
  The region of `KernelIdeal` as a run: four host operations build the fused weight matrix (the four gate matrices side
  by side, narrowed to bf16) and the fused bias row (the four gate biases end to end, as a one-row matrix); then one
  kernel is launched at 32 grid points. Point `t` is handed rows `256 t … 256 t + 255` of the three activation
  arrays, the whole fused weight and the whole fused bias, and writes rows `256 t … 256 t + 255` of the two results.
  The body reads its five input blocks whole, reads (and ignores) what its two output blocks held, and overwrites
  both output blocks whole: the new hidden state (the first result) and the new cell state (the second), each one pure
  function of the five input blocks. This file states that function per point, proves the body's triple, and runs the launch: every weakly
  fair execution terminates without a fault, each result array ends at the blocks the points wrote back, and every
  argument array ends as it began. Everything is stated at any float instance `F`.
-/
import proofs.«125467_j9517647528292_2_alg».proof.Proof.Gen.KernelIdeal.Launch
import proofs.«125467_j9517647528292_2_alg».proof.Proof.Gen.KernelIdeal.Skeleton
import proofs.«125467_j9517647528292_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the kernel finds them -/

/-- Core `c`'s buffers when the kernel is launched: the launch memory after the four host operations. -/
abbrev V (c : Dev nD) (b : Ref sig .tc) : Buf (Elt F) ((c : Thread nD τ).loc b) := StableHlo.after hostOps0 (fun b => m (c, b)) b

/-- No host operation allocates anything. -/
theorem hostOps0_fresh : (hostOps0 : List (HloOp τ sig (Elt F))).Forall fun op => op.fresh = ∅ := by
  simp only [List.Forall]; repeat' constructor

/-- The program is its host operations followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer none of the four host operations writes is found as launched. The four written buffers are the fused
    weight in f32 and in bf16 and the fused bias as a vector and as a row. -/
theorem V_unwritten (c : Dev nD) (b : Ref sig .tc) (h0 : b ≠ main_v0) (h1 : b ≠ main_v1) (h2 : b ≠ main_v2) (h3 : b ≠ main_v3) :
    V m c b = m ((c : Thread nD τ).loc b) :=
  StableHlo.after_of_forall_not_mem (b := Proc.devRef .tc b) _ _ (List.forall_iff_forall_mem.mp (by
    simp only [hostOps0, List.Forall, StableHlo.unary_writes, StableHlo.reshape_writes, StableHlo.nary_writes, Finset.mem_singleton]
    exact ⟨StableHlo.devRef_ne_of_ne h0, StableHlo.devRef_ne_of_ne h1, StableHlo.devRef_ne_of_ne h2, StableHlo.devRef_ne_of_ne h3⟩))

theorem V_main_arg0 (c : Dev nD) : V m c main_arg0 = m ((c : Thread nD τ).loc main_arg0) := V_unwritten m c _ (by decide) (by decide) (by decide) (by decide)
theorem V_main_arg1 (c : Dev nD) : V m c main_arg1 = m ((c : Thread nD τ).loc main_arg1) := V_unwritten m c _ (by decide) (by decide) (by decide) (by decide)
theorem V_main_arg2 (c : Dev nD) : V m c main_arg2 = m ((c : Thread nD τ).loc main_arg2) := V_unwritten m c _ (by decide) (by decide) (by decide) (by decide)
theorem V_main_arg3 (c : Dev nD) : V m c main_arg3 = m ((c : Thread nD τ).loc main_arg3) := V_unwritten m c _ (by decide) (by decide) (by decide) (by decide)
theorem V_main_arg4 (c : Dev nD) : V m c main_arg4 = m ((c : Thread nD τ).loc main_arg4) := V_unwritten m c _ (by decide) (by decide) (by decide) (by decide)
theorem V_main_arg5 (c : Dev nD) : V m c main_arg5 = m ((c : Thread nD τ).loc main_arg5) := V_unwritten m c _ (by decide) (by decide) (by decide) (by decide)
theorem V_main_arg6 (c : Dev nD) : V m c main_arg6 = m ((c : Thread nD τ).loc main_arg6) := V_unwritten m c _ (by decide) (by decide) (by decide) (by decide)
theorem V_main_arg7 (c : Dev nD) : V m c main_arg7 = m ((c : Thread nD τ).loc main_arg7) := V_unwritten m c _ (by decide) (by decide) (by decide) (by decide)
theorem V_main_arg8 (c : Dev nD) : V m c main_arg8 = m ((c : Thread nD τ).loc main_arg8) := V_unwritten m c _ (by decide) (by decide) (by decide) (by decide)
theorem V_main_arg9 (c : Dev nD) : V m c main_arg9 = m ((c : Thread nD τ).loc main_arg9) := V_unwritten m c _ (by decide) (by decide) (by decide) (by decide)
theorem V_main_arg10 (c : Dev nD) : V m c main_arg10 = m ((c : Thread nD τ).loc main_arg10) := V_unwritten m c _ (by decide) (by decide) (by decide) (by decide)

/-! ## A window's block at a point -/

/-- Window `w`'s block at point `t`: the part of its array (as the kernel finds it) the point is handed. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's buffer holds its block at every point — whether the block was fetched at that point or is the
    one fetched earlier (the weight and the bias are fetched once, at the first point, and their block never moves).
    One statement per input window. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in its two output blocks -/

abbrev rAct : Rect S256x1024 := Rect.unit (s := S256x1024) ![0, 0] S256x1024.size inb_S256x1024_S256x1024_0_0
abbrev rWgt : Rect S2048x4096 := Rect.unit (s := S2048x4096) ![0, 0] S2048x4096.size inb_S2048x4096_S2048x4096_0_0
abbrev rBias : Rect S1x4096 := Rect.unit (s := S1x4096) ![0, 0] S1x4096.size inb_S1x4096_S1x4096_0_0

/-- The new hidden state's block, from the five input blocks: the one whole-block store of the body. -/
def outH (x0 x1 x2 : Vec F S256x1024 .f32) (x3 : Vec F S2048x4096 .bf16) (x4 : Vec F S1x4096 .f32) : Vec F S256x1024 .f32 :=
  View.canon [⟨rAct, k0_pay3 (View.ld x0 rAct) (View.ld x1 rAct) (View.ld x2 rAct) (View.ld x3 rWgt) (View.ld x4 rBias)⟩]

/-- The new cell state's block, from the five input blocks. -/
def outC (x0 x1 x2 : Vec F S256x1024 .f32) (x3 : Vec F S2048x4096 .bf16) (x4 : Vec F S1x4096 .f32) : Vec F S256x1024 .f32 :=
  View.canon [⟨rAct, k0_pay2 (View.ld x0 rAct) (View.ld x1 rAct) (View.ld x2 rAct) (View.ld x3 rWgt) (View.ld x4 rBias)⟩]

/-- One whole-block store covers the block. -/
theorem cover_act (p0 : Vec F S256x1024 .f32) (y : S256x1024.Idx) :
    ∃ pc ∈ ([⟨rAct, p0⟩] : List (View.Piece (Elt F) S256x1024 .f32)), y ∈ pc.1.set :=
  View.cover_of_tiled [⟨rAct, p0⟩] S256x1024.size (by rfl) y

/-! ## The body's triple -/

set_option maxHeartbeats 1000000 in
/-- The body, on seven whole buffers — the five inputs at contents `x0 … x4`, the two outputs at anything — runs to
    its end with the inputs as they were and the outputs at `outH` and `outC` of the inputs. -/
theorem sound_kernel (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S2048x4096 .bf16) (harg4 : arg4.IsWhole)
    (arg5 : Memref sig .tc .vmem S1x4096 .f32) (harg5 : arg5.IsWhole) (arg6 : Memref sig .tc .vmem S256x1024 .f32) (harg6 : arg6.IsWhole)
    (arg7 : Memref sig .tc .vmem S256x1024 .f32) (harg7 : arg7.IsWhole)
    (x0 x1 x2 : Vec F S256x1024 .f32) (x3 : Vec F S2048x4096 .bf16) (x4 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outH x0 x1 x2 x3 x4) ∗ owns (c : Thread nD τ) arg7 fullShare (outC x0 x1 x2 x3 x4)) -∗ K ⟨⟩))
      ⊢ wp frame (wpE (defs₀ (F := F)) Variants.none c none) E (cc0__lstm_kernel i arg1 harg1 arg2 harg2 arg3 harg3 arg4 harg4 arg5 harg5 arg6 harg6 arg7 harg7) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_act _)
  iexists _; isplitr
  swap; · iexact H6
  ipureintro
  exact View.read_writes_eq_canon _ _ _ (cover_act _)

/-! ## The launch's proof data -/

/-- After the body at point `t`: each input's buffer at its block, the hidden-state output at `outH` and the
    cell-state output at `outC` of the five input blocks. The arrays are the ones the kernel finds. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outH (iblk m c 0 t) (iblk m c 1 t) (iblk m c 2 t) (iblk m c 3 t) (iblk m c 4 t)
    | ⟨6, _⟩ => outC (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outH (iblk m c 0 t) (iblk m c 1 t) (iblk m c 2 t) (iblk m c 3 t) (iblk m c 4 t) := by dsimp only [dats]
theorem after0_6 (c : Dev nD) (t : Fin cfg0.N) : (dats m 0 c).after 6 t = outC (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before_in0_of m (dats m 0 c) (A_eq m c 0) (after0_0 m c) t d
theorem before0_1 (c : Dev nD) (t : Fin cfg0.N) (d) : (dats m 0 c).before 1 t d = iblk m c 1 t :=
  before_in1_of m (dats m 0 c) (A_eq m c 1) (after0_1 m c) t d
theorem before0_2 (c : Dev nD) (t : Fin cfg0.N) (d) : (dats m 0 c).before 2 t d = iblk m c 2 t :=
  before_in2_of m (dats m 0 c) (A_eq m c 2) (after0_2 m c) t d
theorem before0_3 (c : Dev nD) (t : Fin cfg0.N) (d) : (dats m 0 c).before 3 t d = iblk m c 3 t :=
  before_in3_of m (dats m 0 c) (A_eq m c 3) (after0_3 m c) t d
theorem before0_4 (c : Dev nD) (t : Fin cfg0.N) (d) : (dats m 0 c).before 4 t d = iblk m c 4 t :=
  before_in4_of m (dats m 0 c) (A_eq m c 4) (after0_4 m c) t d

/-! ## The body at a generic point -/

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates without a fault; each array a window stages ends at what
    the write-backs left of it, every other array as the kernel found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- After the run the eleven argument arrays are as they began: three are staged inputs, never written back; eight are
    staged by no window and written by no host operation. -/
theorem kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c)⟩

/-- The program runs to its end without a fault and its eleven argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => kept m r h c) (run_main m ρ)

end Cert.KernelIdeal.Cell

end
-- ==== Proof.CellSpec.lean ====
/-
  The cell the two programs compute, as a function of the eleven argument arrays, entry by entry, on the extended
  reals. Row `r` of the batch has the 2048 inputs `[Z r | H r]` (the 1024 entries of `Z`'s row, then the 1024 of
  `H`'s). Each of the four gates has a 2048 × 1024 weight `W` and a bias `b` of length 1024, and its
  pre-activation at `(r, q)` is `Σₖ [Z r | H r] k · W k q + b q`. With `σ x = 1 / (1 + e⁻ˣ)`:
    new cell    c' r q = σ(pre_f) · C r q + σ(pre_i) · tanh(pre_g)
    new hidden  h' r q = σ(pre_o) · tanh(c' r q).
-/
import Idealize.ShloMosaic.PureOps.Ideal
import Idealize.ShloMosaic.Lib.ValueIdx

noncomputable section

namespace Cert.LstmCell

open Idealize.ShloMosaic Idealize.ShloMosaic.ValueIdx
open scoped BigOperators

/-- A batch of 8192 rows of 1024 entries. -/
abbrev Act : Type := (⟨2, ![8192, 1024]⟩ : Shape).Idx → EReal
/-- One gate's weight: 2048 inputs by 1024 outputs. -/
abbrev Wgt : Type := (⟨2, ![2048, 1024]⟩ : Shape).Idx → EReal
/-- One gate's bias. -/
abbrev Bias : Type := (⟨1, ![1024]⟩ : Shape).Idx → EReal

/-- Two rows of 1024 entries laid end to end: entry `k` is the first row's for `k < 1024`, the second row's at
    `k - 1024` beyond. -/
def rowCat (x y : Fin 1024 → EReal) (k : Fin 2048) : EReal :=
  if h : k.val < 1024 then x ⟨k.val, h⟩ else y ⟨k.val - 1024, by have := k.isLt; omega⟩

/-- A gate's pre-activation at row `r`, output `q`. -/
def gatePre (Z H : Act) (W : Wgt) (b : Bias) (r : Fin 8192) (q : Fin 1024) : EReal :=
  (∑ k : Fin 2048, rowCat (fun k' => Z (ix2 r k')) (fun k' => H (ix2 r k')) k * W (ix2 k q)) + b (ix1 q)

/-- The new cell state at `(r, q)`: forget gate times the old cell state plus input gate times the candidate. -/
def cellNew (Z H C : Act) (Wi : Wgt) (bi : Bias) (Wf : Wgt) (bf : Bias) (Wg : Wgt) (bg : Bias) (r : Fin 8192) (q : Fin 1024) : EReal :=
  Ideal.logistic (gatePre Z H Wf bf r q) * C (ix2 r q) + Ideal.logistic (gatePre Z H Wi bi r q) * Ideal.tanh (gatePre Z H Wg bg r q)

/-- The new hidden state at `(r, q)`: output gate times tanh of the new cell state. -/
def hiddenNew (Z H C : Act) (Wi : Wgt) (bi : Bias) (Wf : Wgt) (bf : Bias) (Wo : Wgt) (bo : Bias) (Wg : Wgt) (bg : Bias) (r : Fin 8192) (q : Fin 1024) : EReal :=
  Ideal.logistic (gatePre Z H Wo bo r q) * Ideal.tanh (cellNew Z H C Wi bi Wf bf Wg bg r q)

/-- The new cell state as an array. -/
def cellArr (Z H C : Act) (Wi : Wgt) (bi : Bias) (Wf : Wgt) (bf : Bias) (Wg : Wgt) (bg : Bias) : Act :=
  fun i => cellNew Z H C Wi bi Wf bf Wg bg (i 0) (i 1)

/-- The new hidden state as an array. -/
def hiddenArr (Z H C : Act) (Wi : Wgt) (bi : Bias) (Wf : Wgt) (bf : Bias) (Wo : Wgt) (bo : Bias) (Wg : Wgt) (bg : Bias) : Act :=
  fun i => hiddenNew Z H C Wi bi Wf bf Wo bo Wg bg (i 0) (i 1)

end Cert.LstmCell

end
-- ==== Proof.CellPay.lean ====
/-
  The body's arithmetic at one entry of its block. The body is handed 256 rows of `Z`, `H` and `C`, the fused
  2048 × 4096 weight (gate `g`'s matrix in columns `1024 g … 1024 g + 1023`) and the fused bias row of 4096. It
  forms `[Z | H]` (256 × 2048), multiplies by the fused weight into a zero accumulator and adds the bias row: column
  `c` of row `p` of that 256 × 4096 matrix is `Σₖ [Z p | H p] k · W k c + b c`. The four gates are its four column
  bands; the stores are `σ(band 1) · C + σ(band 0) · tanh(band 3)` and `σ(band 2) · tanh` of that.
-/
import proofs.«125467_j9517647528292_2_alg».proof.Proof.Gen.KernelIdeal.Skeleton
import proofs.«125467_j9517647528292_2_alg».proof.Proof.CellSpec
import Idealize.ShloMosaic.Lib.Pipeline.Value
import Idealize.ShloMosaic.Lib.ValueIdx
import Idealize.ShloMosaic.PureOps.Ideal.Laws

noncomputable section

namespace Cert.KernelIdeal.CellPay

open Cert.KernelIdeal Cert.KernelIdeal.Gen Cert.LstmCell
open Idealize.ShloMosaic Idealize.ShloMosaic.ValueIdx
open scoped BigOperators

/-- The fused product's dimension numbers: rows × contraction times contraction × columns. -/
abbrev DK : DotDims S256x2048 S2048x4096 S256x4096 := dot_S256x2048_S2048x4096_S256x4096_1_0_0_1_n_n

theorem lhs0 (i : S256x4096.Idx) (q : DK.contr.Idx) : (DK.lhsIdx i q 0).val = (i 0).val := by
  unfold DotDims.lhsIdx
  rw [dif_neg (show ¬(0 : Fin S256x2048.rank) ∈ DK.lhsBatch by decide), dif_pos (show (0 : Fin S256x2048.rank) ∈ DK.lhsNonContracting by decide)]
  rfl
theorem lhs1 (i : S256x4096.Idx) (q : DK.contr.Idx) : (DK.lhsIdx i q 1).val = (q ⟨0, by decide⟩).val :=
  DK.lhsIdx_val_of_single rfl i q
theorem rhs0 (i : S256x4096.Idx) (q : DK.contr.Idx) : (DK.rhsIdx i q 0).val = (q ⟨0, by decide⟩).val :=
  DK.rhsIdx_val_of_single rfl i q
theorem rhs1 (i : S256x4096.Idx) (q : DK.contr.Idx) : (DK.rhsIdx i q 1).val = (i 1).val := by
  unfold DotDims.rhsIdx
  rw [dif_neg (show ¬(1 : Fin S2048x4096.rank) ∈ DK.rhsBatch by decide), dif_pos (show (1 : Fin S2048x4096.rank) ∈ DK.rhsNonContracting by decide)]
  rfl

/-- The matrix product into a zero accumulator, at row `p` and column `c`: the sum over the 2048 inputs. -/
theorem fused_dot_apply (l : FVec Ideal S256x2048 .bf16) (r : FVec Ideal S2048x4096 .bf16) (p : Fin 256) (c : Fin 4096) :
    matmul DK none l r (constant S256x4096 .f32 0x00000000#32) (ix2 p c) = ∑ k : Fin 2048, l (ix2 p k) * r (ix2 k c) := by
  simp only [matmul]
  rw [Ideal.matmul_constant_zero_apply, ← Equiv.sum_comp (contrEquiv1 DK 2048 rfl rfl).symm]
  refine Finset.sum_congr rfl fun k _ => ?_
  have hk := contrEquiv1_symm_val DK 2048 rfl rfl k
  have el : DK.lhsIdx (ix2 p c) ((contrEquiv1 DK 2048 rfl rfl).symm k) = ix2 p k := funext fun a => Fin.ext (by
    match a with
    | ⟨0, _⟩ => exact lhs0 _ _
    | ⟨1, _⟩ => exact (lhs1 _ _).trans hk)
  have er : DK.rhsIdx (ix2 p c) ((contrEquiv1 DK 2048 rfl rfl).symm k) = ix2 k c := funext fun a => Fin.ext (by
    match a with
    | ⟨0, _⟩ => exact (rhs0 _ _).trans hk
    | ⟨1, _⟩ => exact rhs1 _ _)
  rw [el, er]

/-- `[Z | H]` of a 256-row block at `(p, k)`. -/
theorem blockCat_apply (v0 v2 : S256x1024.Idx → EReal) (p : Fin 256) (k : Fin 2048) :
    concatenate S256x2048 1 [⟨S256x1024, v0⟩, ⟨S256x1024, v2⟩] concatenates_S256x1024_S256x1024_S256x2048_d1 (ix2 p k)
      = rowCat (fun k' => v0 (ix2 p k')) (fun k' => v2 (ix2 p k')) k := by
  unfold rowCat
  split
  · rename_i h
    exact concatenate_pair_apply_left 1 v0 v2 _ (ix2 p k) rfl (ix2 p ⟨k.val, h⟩) (fun b => by
      match b with
      | ⟨0, _⟩ => rfl
      | ⟨1, _⟩ => rfl)
  · rename_i h
    exact concatenate_pair_apply_right 1 v0 v2 _ (ix2 p k) rfl rfl (ix2 p ⟨k.val - 1024, by have := k.isLt; omega⟩) (fun b hb => by
      match b with
      | ⟨0, _⟩ => rfl
      | ⟨1, _⟩ => exact absurd rfl hb) (by show (k.val - 1024) + 1024 = k.val; omega)

/-- Column `c` of row `p` of the fused pre-activation. -/
theorem pay1_apply (v0 v2 : Vec Ideal S256x1024 .f32) (v6 : Vec Ideal S2048x4096 .bf16) (v9 : Vec Ideal S1x4096 .f32) (p : Fin 256) (c : Fin 4096) :
    k0_pay1 (F := Ideal) v0 v2 v6 v9 (ix2 p c)
      = (∑ k : Fin 2048, rowCat (fun k' => v0 (ix2 p k')) (fun k' => v2 (ix2 p k')) k * v6 (ix2 k c)) + v9 (ix2 0 c) := by
  unfold k0_pay1
  rw [addf_apply, shapeCast_self, shapeCast_self, fused_dot_apply]
  congr 1
  · refine Finset.sum_congr rfl fun k _ => ?_
    exact congrArg (· * v6 (ix2 k c)) (blockCat_apply v0 v2 p k)
  · exact broadcastTo_apply v9 _ (ix2 p c) (ix2 0 c) (fun a => by
      match a with
      | ⟨0, _⟩ => rfl
      | ⟨1, _⟩ => rfl)

/-- A band of 1024 columns starting at `off`, read at `(p, q)`. -/
theorem band_apply (X : S256x4096.Idx → EReal) (off : Nat) (h : S256x4096.Slices ![0, off] S256x1024) (p : Fin 256) (q : Fin 1024) (hq : off + q.val < 4096) :
    extractStridedSlice S256x1024 ![0, off] X h (ix2 p q) = X (ix2 p ⟨off + q.val, hq⟩) :=
  extractStridedSlice_apply _ X h (ix2 p q) (ix2 p ⟨off + q.val, hq⟩) (fun a => by
    match a with
    | ⟨0, _⟩ => exact (Nat.zero_add _).symm
    | ⟨1, _⟩ => rfl)

/-- The cell-state store at `(p, q)`. -/
theorem pay2_apply (v0 v2 v4 : Vec Ideal S256x1024 .f32) (v6 : Vec Ideal S2048x4096 .bf16) (v9 : Vec Ideal S1x4096 .f32) (p : Fin 256) (q : Fin 1024) :
    k0_pay2 (F := Ideal) v0 v2 v4 v6 v9 (ix2 p q)
      = Ideal.logistic (k0_pay1 (F := Ideal) v0 v2 v6 v9 (ix2 p ⟨1024 + q.val, by have := q.isLt; omega⟩)) * v4 (ix2 p q)
        + Ideal.logistic (k0_pay1 (F := Ideal) v0 v2 v6 v9 (ix2 p ⟨0 + q.val, by have := q.isLt; omega⟩))
          * Ideal.tanh (k0_pay1 (F := Ideal) v0 v2 v6 v9 (ix2 p ⟨3072 + q.val, by have := q.isLt; omega⟩)) := by
  rw [← band_apply (k0_pay1 (F := Ideal) v0 v2 v6 v9) 1024 slices_S256x4096_o0_1024_S256x1024 p q,
    ← band_apply (k0_pay1 (F := Ideal) v0 v2 v6 v9) 0 slices_S256x4096_o0_0_S256x1024 p q,
    ← band_apply (k0_pay1 (F := Ideal) v0 v2 v6 v9) 3072 slices_S256x4096_o0_3072_S256x1024 p q]
  rfl

/-- The hidden-state store at `(p, q)`. -/
theorem pay3_apply (v0 v2 v4 : Vec Ideal S256x1024 .f32) (v6 : Vec Ideal S2048x4096 .bf16) (v9 : Vec Ideal S1x4096 .f32) (p : Fin 256) (q : Fin 1024) :
    k0_pay3 (F := Ideal) v0 v2 v4 v6 v9 (ix2 p q)
      = Ideal.logistic (k0_pay1 (F := Ideal) v0 v2 v6 v9 (ix2 p ⟨2048 + q.val, by have := q.isLt; omega⟩))
        * Ideal.tanh (k0_pay2 (F := Ideal) v0 v2 v4 v6 v9 (ix2 p q)) := by
  rw [← band_apply (k0_pay1 (F := Ideal) v0 v2 v6 v9) 2048 slices_S256x4096_o0_2048_S256x1024 p q]
  rfl

end Cert.KernelIdeal.CellPay

end
-- ==== Proof.CellBlock.lean ====
/-
  One point's two stores are the specification's cell and hidden states on the point's rows. Stated over any three
  256-row blocks, any 2048 × 4096 matrix and any 1 × 4096 row that ARE rows `r0 … r0 + 255` of three batch arrays,
  four gate weights side by side (gate `g` in columns `1024 g … 1024 g + 1023`: input, forget, output, candidate)
  and the four gate biases end to end: the store at `(p, q)` is the specification at `(r0 + p, q)`.
-/
import proofs.«125467_j9517647528292_2_alg».proof.Proof.CellPay

noncomputable section

namespace Cert.KernelIdeal.CellPay

open Cert.KernelIdeal Cert.KernelIdeal.Gen Cert.LstmCell
open Idealize.ShloMosaic Idealize.ShloMosaic.ValueIdx
open scoped BigOperators

/-- The 256-row block `x` is rows `r0 … r0 + 255` of the batch array `A`. -/
def RowsOf (x : S256x1024.Idx → EReal) (A : Act) (r0 : Nat) (h : r0 + 256 ≤ 8192) : Prop :=
  ∀ (p : Fin 256) (k : Fin 1024), x (ix2 p k) = A (ix2 ⟨r0 + p.val, by have := p.isLt; omega⟩ k)

/-- The 2048 × 4096 matrix `x` is the four gate weights side by side. -/
def FusedW (x : S2048x4096.Idx → EReal) (Wi Wf Wo Wg : Wgt) : Prop :=
  ∀ (k : Fin 2048) (q : Fin 1024),
    x (ix2 k ⟨0 + q.val, by have := q.isLt; omega⟩) = Wi (ix2 k q)
    ∧ x (ix2 k ⟨1024 + q.val, by have := q.isLt; omega⟩) = Wf (ix2 k q)
    ∧ x (ix2 k ⟨2048 + q.val, by have := q.isLt; omega⟩) = Wo (ix2 k q)
    ∧ x (ix2 k ⟨3072 + q.val, by have := q.isLt; omega⟩) = Wg (ix2 k q)

/-- The 1 × 4096 row `x` is the four gate biases end to end. -/
def FusedB (x : S1x4096.Idx → EReal) (bi bf bo bg : Bias) : Prop :=
  ∀ q : Fin 1024,
    x (ix2 (0 : Fin 1) ⟨0 + q.val, by have := q.isLt; omega⟩) = bi (ix1 q)
    ∧ x (ix2 (0 : Fin 1) ⟨1024 + q.val, by have := q.isLt; omega⟩) = bf (ix1 q)
    ∧ x (ix2 (0 : Fin 1) ⟨2048 + q.val, by have := q.isLt; omega⟩) = bo (ix1 q)
    ∧ x (ix2 (0 : Fin 1) ⟨3072 + q.val, by have := q.isLt; omega⟩) = bg (ix1 q)

/-- Two pairs of rows that agree entry by entry have the same concatenation. -/
theorem rowCat_congr {x x' y y' : Fin 1024 → EReal} (hx : ∀ k, x k = x' k) (hy : ∀ k, y k = y' k) (k : Fin 2048) :
    rowCat x y k = rowCat x' y' k := by
  unfold rowCat
  split
  · exact hx _
  · exact hy _

/-- One band of the fused pre-activation, at a block's entry, is its gate's pre-activation at the array's entry. -/
theorem band_pre (Z H : Act) (W : Wgt) (b : Bias)
    (x0 x1 : S256x1024.Idx → EReal) (x3 : S2048x4096.Idx → EReal) (x4 : S1x4096.Idx → EReal)
    (r : Fin 8192) (p : Fin 256) (off : Nat) (q : Fin 1024) (hq : off + q.val < 4096)
    (h0 : ∀ k, x0 (ix2 p k) = Z (ix2 r k)) (h1 : ∀ k, x1 (ix2 p k) = H (ix2 r k))
    (h3 : ∀ k : Fin 2048, x3 (ix2 k ⟨off + q.val, hq⟩) = W (ix2 k q))
    (h4 : x4 (ix2 (0 : Fin 1) ⟨off + q.val, hq⟩) = b (ix1 q)) :
    k0_pay1 (F := Ideal) x0 x1 x3 x4 (ix2 p ⟨off + q.val, hq⟩) = gatePre Z H W b r q := by
  rw [pay1_apply]
  unfold gatePre
  rw [h4]
  congr 1
  refine Finset.sum_congr rfl fun k _ => ?_
  rw [h3 k, rowCat_congr h0 h1 k]

/-- The cell-state store at `(p, q)` is the new cell state at `(r0 + p, q)`. -/
theorem cell_block (Z H C : Act) (Wi : Wgt) (bi : Bias) (Wf : Wgt) (bf : Bias) (Wo : Wgt) (bo : Bias) (Wg : Wgt) (bg : Bias)
    (x0 x1 x2 : S256x1024.Idx → EReal) (x3 : S2048x4096.Idx → EReal) (x4 : S1x4096.Idx → EReal)
    (r0 : Nat) (hr : r0 + 256 ≤ 8192)
    (h0 : RowsOf x0 Z r0 hr) (h1 : RowsOf x1 H r0 hr) (h2 : RowsOf x2 C r0 hr)
    (h3 : FusedW x3 Wi Wf Wo Wg) (h4 : FusedB x4 bi bf bo bg) (p : Fin 256) (q : Fin 1024) :
    k0_pay2 (F := Ideal) x0 x1 x2 x3 x4 (ix2 p q)
      = cellNew Z H C Wi bi Wf bf Wg bg ⟨r0 + p.val, by have := p.isLt; omega⟩ q := by
  rw [pay2_apply,
    band_pre Z H Wf bf x0 x1 x3 x4 ⟨r0 + p.val, by have := p.isLt; omega⟩ p 1024 q _ (h0 p) (h1 p) (fun k => (h3 k q).2.1) (h4 q).2.1,
    band_pre Z H Wi bi x0 x1 x3 x4 ⟨r0 + p.val, by have := p.isLt; omega⟩ p 0 q _ (h0 p) (h1 p) (fun k => (h3 k q).1) (h4 q).1,
    band_pre Z H Wg bg x0 x1 x3 x4 ⟨r0 + p.val, by have := p.isLt; omega⟩ p 3072 q _ (h0 p) (h1 p) (fun k => (h3 k q).2.2.2) (h4 q).2.2.2,
    h2 p q]
  rfl

/-- The hidden-state store at `(p, q)` is the new hidden state at `(r0 + p, q)`. -/
theorem hidden_block (Z H C : Act) (Wi : Wgt) (bi : Bias) (Wf : Wgt) (bf : Bias) (Wo : Wgt) (bo : Bias) (Wg : Wgt) (bg : Bias)
    (x0 x1 x2 : S256x1024.Idx → EReal) (x3 : S2048x4096.Idx → EReal) (x4 : S1x4096.Idx → EReal)
    (r0 : Nat) (hr : r0 + 256 ≤ 8192)
    (h0 : RowsOf x0 Z r0 hr) (h1 : RowsOf x1 H r0 hr) (h2 : RowsOf x2 C r0 hr)
    (h3 : FusedW x3 Wi Wf Wo Wg) (h4 : FusedB x4 bi bf bo bg) (p : Fin 256) (q : Fin 1024) :
    k0_pay3 (F := Ideal) x0 x1 x2 x3 x4 (ix2 p q)
      = hiddenNew Z H C Wi bi Wf bf Wo bo Wg bg ⟨r0 + p.val, by have := p.isLt; omega⟩ q := by
  rw [pay3_apply,
    band_pre Z H Wo bo x0 x1 x3 x4 ⟨r0 + p.val, by have := p.isLt; omega⟩ p 2048 q _ (h0 p) (h1 p) (fun k => (h3 k q).2.2.1) (h4 q).2.2.1,
    cell_block Z H C Wi bi Wf bf Wo bo Wg bg x0 x1 x2 x3 x4 r0 hr h0 h1 h2 h3 h4 p q]
  rfl

end Cert.KernelIdeal.CellPay

end
-- ==== Proof.CellHost.lean ====
/-
  What the kernel finds in the two buffers the host operations build. The fused weight is the four gate matrices side
  by side, narrowed to bf16 — the identity on extended reals — so its entry `(k, 1024 g + q)` is gate `g`'s weight at
  `(k, q)`. The fused bias is the four gate biases end to end, reshaped from a vector of 4096 to a row, so its entry
  `(0, 1024 g + q)` is gate `g`'s bias at `q`. (Gates in the order input, forget, output, candidate.)
-/
import proofs.«125467_j9517647528292_2_alg».proof.Proof.CellIdeal
import proofs.«125467_j9517647528292_2_alg».proof.Proof.CellBlock
import Idealize.ShloMosaic.Lib.StableHlo.Run
import Idealize.ShloMosaic.Lib.Pipeline.Value
import Idealize.ShloMosaic.Lib.ValueIdx

noncomputable section

namespace Cert.KernelIdeal.Cell

open Cert.KernelIdeal Cert.KernelIdeal.Gen Cert.KernelIdeal.CellPay Cert.LstmCell
open Idealize.ShloMosaic Idealize.ShloMosaic.TcCoe Idealize.SL.Sem Idealize.ShloMosaic.StableHlo Idealize.ShloMosaic.ValueIdx

variable (m : (ℓ : Loc nD τ sig) → Buf (Elt Ideal) ℓ)

/-- The fused weight buffer as the kernel finds it. -/
theorem V_wcat (c : Dev nD) : @Eq (FVec Ideal S2048x4096 .bf16) (V m c main_v1)
    (truncf (F := Ideal) .bf16 (concatenate S2048x4096 1 [⟨S2048x1024, m ((c : Thread nD τ).loc main_arg3)⟩, ⟨S2048x1024, m ((c : Thread nD τ).loc main_arg5)⟩,
        ⟨S2048x1024, m ((c : Thread nD τ).loc main_arg7)⟩, ⟨S2048x1024, m ((c : Thread nD τ).loc main_arg9)⟩]
        concatenates_S2048x1024_S2048x1024_S2048x1024_S2048x1024_S2048x4096_d1) bitsLt_bf16_f32) := by
  dsimp only [V, hostOps0]
  after_results
  rfl

/-- The fused bias buffer as the kernel finds it. -/
theorem V_bcat (c : Dev nD) : @Eq (S1x4096.Idx → EReal) (V m c main_v3)
    (shapeCast S1x4096 (concatenate S4096 0 [⟨S1024, m ((c : Thread nD τ).loc main_arg4)⟩, ⟨S1024, m ((c : Thread nD τ).loc main_arg6)⟩,
        ⟨S1024, m ((c : Thread nD τ).loc main_arg8)⟩, ⟨S1024, m ((c : Thread nD τ).loc main_arg10)⟩]
        concatenates_S1024_S1024_S1024_S1024_S4096_d0) shapeCasts_S4096_S1x4096) := by
  dsimp only [V, hostOps0]
  simp only [after_cons, after_nil]
  rw [reshape_result, nary4_result]
  repeat (first
    | (rw [unary_result_ne]; rotate_left; decide)
    | (rw [nary_result_ne]; rotate_left; decide))
  rfl

/-- The four gate weights, as the pieces the fused weight joins along its columns. -/
abbrev wPieces (c : Dev nD) : List ((s : Shape) × (s.Idx → EReal)) :=
  [⟨S2048x1024, m ((c : Thread nD τ).loc main_arg3)⟩, ⟨S2048x1024, m ((c : Thread nD τ).loc main_arg5)⟩, ⟨S2048x1024, m ((c : Thread nD τ).loc main_arg7)⟩, ⟨S2048x1024, m ((c : Thread nD τ).loc main_arg9)⟩]

/-- The four gate biases, as the pieces the fused bias joins end to end. -/
abbrev bPieces (c : Dev nD) : List ((s : Shape) × (s.Idx → EReal)) :=
  [⟨S1024, m ((c : Thread nD τ).loc main_arg4)⟩, ⟨S1024, m ((c : Thread nD τ).loc main_arg6)⟩, ⟨S1024, m ((c : Thread nD τ).loc main_arg8)⟩, ⟨S1024, m ((c : Thread nD τ).loc main_arg10)⟩]

/-- Gate i's columns of the fused weight. -/
theorem wcat_i (c : Dev nD) (k : Fin 2048) (q : Fin 1024) :
    (V m c main_v1 : S2048x4096.Idx → EReal) (ix2 k ⟨0 + q.val, by have := q.isLt; omega⟩) = m ((c : Thread nD τ).loc main_arg3) (ix2 k q) := by
  have hq : 0 + q.val < 4096 := by have := q.isLt; omega
  rw [V_wcat]
  show concatenate S2048x4096 1 (wPieces m c) concatenates_S2048x1024_S2048x1024_S2048x1024_S2048x1024_S2048x4096_d1 (ix2 k ⟨0 + q.val, hq⟩) = _
  exact concatenate_apply_piece (t := S2048x4096) (1 : Fin 2) (wPieces m c)
    (show Shape.Concatenates ((wPieces m c).map (·.1)) S2048x4096 1 from concatenates_S2048x1024_S2048x1024_S2048x1024_S2048x1024_S2048x4096_d1)
    (ix2 k ⟨0 + q.val, hq⟩) 0 (by show 0 < 4; decide) S2048x1024 (m ((c : Thread nD τ).loc main_arg3)) rfl rfl 0 (by rfl) (ix2 k q)
    (fun b hb => by
      match b with
      | ⟨0, _⟩ => rfl
      | ⟨1, _⟩ => exact absurd rfl hb) rfl

/-- Gate i's stretch of the fused bias. -/
theorem bcat_i (c : Dev nD) (q : Fin 1024) :
    (V m c main_v3 : S1x4096.Idx → EReal) (ix2 (0 : Fin 1) ⟨0 + q.val, by have := q.isLt; omega⟩) = m ((c : Thread nD τ).loc main_arg4) (ix1 q) := by
  have hq : 0 + q.val < 4096 := by have := q.isLt; omega
  rw [V_bcat]
  rw [shapeCast_apply _ shapeCasts_S4096_S1x4096 (ix2 (0 : Fin 1) ⟨0 + q.val, hq⟩) (ix1 ⟨0 + q.val, hq⟩)
    (by rw [Shape.rowMajor_val_one, Shape.rowMajor_val_two]; show 0 + q.val = 0 * 4096 + (0 + q.val); omega)]
  exact concatenate_apply_piece (t := S4096) (0 : Fin 1) (bPieces m c)
    (show Shape.Concatenates ((bPieces m c).map (·.1)) S4096 0 from concatenates_S1024_S1024_S1024_S1024_S4096_d0)
    (ix1 ⟨0 + q.val, hq⟩) 0 (by show 0 < 4; decide) S1024 (m ((c : Thread nD τ).loc main_arg4)) rfl rfl 0 (by rfl) (ix1 q)
    (fun b hb => by
      match b with
      | ⟨0, _⟩ => exact absurd rfl hb) rfl

/-- Gate f's columns of the fused weight. -/
theorem wcat_f (c : Dev nD) (k : Fin 2048) (q : Fin 1024) :
    (V m c main_v1 : S2048x4096.Idx → EReal) (ix2 k ⟨1024 + q.val, by have := q.isLt; omega⟩) = m ((c : Thread nD τ).loc main_arg5) (ix2 k q) := by
  have hq : 1024 + q.val < 4096 := by have := q.isLt; omega
  rw [V_wcat]
  show concatenate S2048x4096 1 (wPieces m c) concatenates_S2048x1024_S2048x1024_S2048x1024_S2048x1024_S2048x4096_d1 (ix2 k ⟨1024 + q.val, hq⟩) = _
  exact concatenate_apply_piece (t := S2048x4096) (1 : Fin 2) (wPieces m c)
    (show Shape.Concatenates ((wPieces m c).map (·.1)) S2048x4096 1 from concatenates_S2048x1024_S2048x1024_S2048x1024_S2048x1024_S2048x4096_d1)
    (ix2 k ⟨1024 + q.val, hq⟩) 1 (by show 1 < 4; decide) S2048x1024 (m ((c : Thread nD τ).loc main_arg5)) rfl rfl 1024 (by rfl) (ix2 k q)
    (fun b hb => by
      match b with
      | ⟨0, _⟩ => rfl
      | ⟨1, _⟩ => exact absurd rfl hb) rfl

/-- Gate f's stretch of the fused bias. -/
theorem bcat_f (c : Dev nD) (q : Fin 1024) :
    (V m c main_v3 : S1x4096.Idx → EReal) (ix2 (0 : Fin 1) ⟨1024 + q.val, by have := q.isLt; omega⟩) = m ((c : Thread nD τ).loc main_arg6) (ix1 q) := by
  have hq : 1024 + q.val < 4096 := by have := q.isLt; omega
  rw [V_bcat]
  rw [shapeCast_apply _ shapeCasts_S4096_S1x4096 (ix2 (0 : Fin 1) ⟨1024 + q.val, hq⟩) (ix1 ⟨1024 + q.val, hq⟩)
    (by rw [Shape.rowMajor_val_one, Shape.rowMajor_val_two]; show 1024 + q.val = 0 * 4096 + (1024 + q.val); omega)]
  exact concatenate_apply_piece (t := S4096) (0 : Fin 1) (bPieces m c)
    (show Shape.Concatenates ((bPieces m c).map (·.1)) S4096 0 from concatenates_S1024_S1024_S1024_S1024_S4096_d0)
    (ix1 ⟨1024 + q.val, hq⟩) 1 (by show 1 < 4; decide) S1024 (m ((c : Thread nD τ).loc main_arg6)) rfl rfl 1024 (by rfl) (ix1 q)
    (fun b hb => by
      match b with
      | ⟨0, _⟩ => exact absurd rfl hb) rfl

/-- Gate o's columns of the fused weight. -/
theorem wcat_o (c : Dev nD) (k : Fin 2048) (q : Fin 1024) :
    (V m c main_v1 : S2048x4096.Idx → EReal) (ix2 k ⟨2048 + q.val, by have := q.isLt; omega⟩) = m ((c : Thread nD τ).loc main_arg7) (ix2 k q) := by
  have hq : 2048 + q.val < 4096 := by have := q.isLt; omega
  rw [V_wcat]
  show concatenate S2048x4096 1 (wPieces m c) concatenates_S2048x1024_S2048x1024_S2048x1024_S2048x1024_S2048x4096_d1 (ix2 k ⟨2048 + q.val, hq⟩) = _
  exact concatenate_apply_piece (t := S2048x4096) (1 : Fin 2) (wPieces m c)
    (show Shape.Concatenates ((wPieces m c).map (·.1)) S2048x4096 1 from concatenates_S2048x1024_S2048x1024_S2048x1024_S2048x1024_S2048x4096_d1)
    (ix2 k ⟨2048 + q.val, hq⟩) 2 (by show 2 < 4; decide) S2048x1024 (m ((c : Thread nD τ).loc main_arg7)) rfl rfl 2048 (by rfl) (ix2 k q)
    (fun b hb => by
      match b with
      | ⟨0, _⟩ => rfl
      | ⟨1, _⟩ => exact absurd rfl hb) rfl

/-- Gate o's stretch of the fused bias. -/
theorem bcat_o (c : Dev nD) (q : Fin 1024) :
    (V m c main_v3 : S1x4096.Idx → EReal) (ix2 (0 : Fin 1) ⟨2048 + q.val, by have := q.isLt; omega⟩) = m ((c : Thread nD τ).loc main_arg8) (ix1 q) := by
  have hq : 2048 + q.val < 4096 := by have := q.isLt; omega
  rw [V_bcat]
  rw [shapeCast_apply _ shapeCasts_S4096_S1x4096 (ix2 (0 : Fin 1) ⟨2048 + q.val, hq⟩) (ix1 ⟨2048 + q.val, hq⟩)
    (by rw [Shape.rowMajor_val_one, Shape.rowMajor_val_two]; show 2048 + q.val = 0 * 4096 + (2048 + q.val); omega)]
  exact concatenate_apply_piece (t := S4096) (0 : Fin 1) (bPieces m c)
    (show Shape.Concatenates ((bPieces m c).map (·.1)) S4096 0 from concatenates_S1024_S1024_S1024_S1024_S4096_d0)
    (ix1 ⟨2048 + q.val, hq⟩) 2 (by show 2 < 4; decide) S1024 (m ((c : Thread nD τ).loc main_arg8)) rfl rfl 2048 (by rfl) (ix1 q)
    (fun b hb => by
      match b with
      | ⟨0, _⟩ => exact absurd rfl hb) rfl

/-- Gate g's columns of the fused weight. -/
theorem wcat_g (c : Dev nD) (k : Fin 2048) (q : Fin 1024) :
    (V m c main_v1 : S2048x4096.Idx → EReal) (ix2 k ⟨3072 + q.val, by have := q.isLt; omega⟩) = m ((c : Thread nD τ).loc main_arg9) (ix2 k q) := by
  have hq : 3072 + q.val < 4096 := by have := q.isLt; omega
  rw [V_wcat]
  show concatenate S2048x4096 1 (wPieces m c) concatenates_S2048x1024_S2048x1024_S2048x1024_S2048x1024_S2048x4096_d1 (ix2 k ⟨3072 + q.val, hq⟩) = _
  exact concatenate_apply_piece (t := S2048x4096) (1 : Fin 2) (wPieces m c)
    (show Shape.Concatenates ((wPieces m c).map (·.1)) S2048x4096 1 from concatenates_S2048x1024_S2048x1024_S2048x1024_S2048x1024_S2048x4096_d1)
    (ix2 k ⟨3072 + q.val, hq⟩) 3 (by show 3 < 4; decide) S2048x1024 (m ((c : Thread nD τ).loc main_arg9)) rfl rfl 3072 (by rfl) (ix2 k q)
    (fun b hb => by
      match b with
      | ⟨0, _⟩ => rfl
      | ⟨1, _⟩ => exact absurd rfl hb) rfl

/-- Gate g's stretch of the fused bias. -/
theorem bcat_g (c : Dev nD) (q : Fin 1024) :
    (V m c main_v3 : S1x4096.Idx → EReal) (ix2 (0 : Fin 1) ⟨3072 + q.val, by have := q.isLt; omega⟩) = m ((c : Thread nD τ).loc main_arg10) (ix1 q) := by
  have hq : 3072 + q.val < 4096 := by have := q.isLt; omega
  rw [V_bcat]
  rw [shapeCast_apply _ shapeCasts_S4096_S1x4096 (ix2 (0 : Fin 1) ⟨3072 + q.val, hq⟩) (ix1 ⟨3072 + q.val, hq⟩)
    (by rw [Shape.rowMajor_val_one, Shape.rowMajor_val_two]; show 3072 + q.val = 0 * 4096 + (3072 + q.val); omega)]
  exact concatenate_apply_piece (t := S4096) (0 : Fin 1) (bPieces m c)
    (show Shape.Concatenates ((bPieces m c).map (·.1)) S4096 0 from concatenates_S1024_S1024_S1024_S1024_S4096_d0)
    (ix1 ⟨3072 + q.val, hq⟩) 3 (by show 3 < 4; decide) S1024 (m ((c : Thread nD τ).loc main_arg10)) rfl rfl 3072 (by rfl) (ix1 q)
    (fun b hb => by
      match b with
      | ⟨0, _⟩ => exact absurd rfl hb) rfl

end Cert.KernelIdeal.Cell

end
-- ==== Proof.CellArrays.lean ====
/-
  From the points' blocks to the two result arrays. Point `t` of the 32 is handed rows `256 t … 256 t + 255` of the
  three batch arrays (block index `(t, 0)`) and the whole fused weight and bias (block index `(0, 0)` at every
  point), and writes back rows `256 t … 256 t + 255` of each result. What it writes is the specification restricted
  to those rows; the 32 row bands cover the 8192 rows (row `r` is in band `r / 256`); so each result array ends as
  the specification's array of the eleven argument arrays.
-/
import proofs.«125467_j9517647528292_2_alg».proof.Proof.CellHost
import Idealize.ShloMosaic.Lib.Pipeline.Value

set_option maxRecDepth 16384

noncomputable section

namespace Cert.KernelIdeal.Cell

open Cert.KernelIdeal Cert.KernelIdeal.Gen Cert.KernelIdeal.CellPay Cert.LstmCell
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The index maps over the grid: the three batch inputs and the two results move down one block of rows per point;
    the fused weight and bias stay at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem t_lt (t : Fin cfg0.N) : t.val < 32 := Nat.lt_of_lt_of_eq t.isLt N_0

theorem rows_le (t : Fin cfg0.N) : 256 * t.val + 256 ≤ 8192 := by have := t_lt t; omega

/-- Input window 0's block at point `t` is rows `256 t … 256 t + 255` of its argument array. -/
theorem rows0 (c : Dev nD) (t : Fin cfg0.N) : RowsOf (iblk m c 0 t) (m ((c : Thread nD τ).loc main_arg0)) (256 * t.val) (rows_le t) := by
  intro p k
  have ht := idx_facts t
  show V m c main_arg0 (((cfg0.win 0).blk t).view.emb (ix2 p k)) = _
  rw [V_main_arg0]
  refine congrArg _ (funext fun a => Fin.ext ?_)
  match a with
  | ⟨0, _⟩ =>
    show win0_0.index t (0 : Fin 2) * 256 + 1 * p.val = 256 * t.val + p.val
    rw [ht.1]; omega
  | ⟨1, _⟩ =>
    show win0_0.index t (1 : Fin 2) * 1024 + 1 * k.val = k.val
    rw [ht.2.1]; omega

/-- Input window 1's block at point `t` is rows `256 t … 256 t + 255` of its argument array. -/
theorem rows1 (c : Dev nD) (t : Fin cfg0.N) : RowsOf (iblk m c 1 t) (m ((c : Thread nD τ).loc main_arg1)) (256 * t.val) (rows_le t) := by
  intro p k
  have ht := idx_facts t
  show V m c main_arg1 (((cfg0.win 1).blk t).view.emb (ix2 p k)) = _
  rw [V_main_arg1]
  refine congrArg _ (funext fun a => Fin.ext ?_)
  match a with
  | ⟨0, _⟩ =>
    show win0_1.index t (0 : Fin 2) * 256 + 1 * p.val = 256 * t.val + p.val
    rw [ht.2.2.1]; omega
  | ⟨1, _⟩ =>
    show win0_1.index t (1 : Fin 2) * 1024 + 1 * k.val = k.val
    rw [ht.2.2.2.1]; omega

/-- Input window 2's block at point `t` is rows `256 t … 256 t + 255` of its argument array. -/
theorem rows2 (c : Dev nD) (t : Fin cfg0.N) : RowsOf (iblk m c 2 t) (m ((c : Thread nD τ).loc main_arg2)) (256 * t.val) (rows_le t) := by
  intro p k
  have ht := idx_facts t
  show V m c main_arg2 (((cfg0.win 2).blk t).view.emb (ix2 p k)) = _
  rw [V_main_arg2]
  refine congrArg _ (funext fun a => Fin.ext ?_)
  match a with
  | ⟨0, _⟩ =>
    show win0_2.index t (0 : Fin 2) * 256 + 1 * p.val = 256 * t.val + p.val
    rw [ht.2.2.2.2.1]; omega
  | ⟨1, _⟩ =>
    show win0_2.index t (1 : Fin 2) * 1024 + 1 * k.val = k.val
    rw [ht.2.2.2.2.2.1]; omega

/-- The weight window's block at every point is the whole fused weight. -/
theorem blk3_eq (c : Dev nD) (t : Fin cfg0.N) (j : S2048x4096.Idx) : iblk m c 3 t j = (V m c main_v1 : S2048x4096.Idx → EReal) j := by
  have ht := idx_facts t
  show V m c main_v1 (((cfg0.win 3).blk t).view.emb j) = _
  refine congrArg _ (funext fun a => Fin.ext ?_)
  match a with
  | ⟨0, _⟩ =>
    show win0_3.index t (0 : Fin 2) * 2048 + 1 * (j 0).val = (j 0).val
    rw [ht.2.2.2.2.2.2.1]; omega
  | ⟨1, _⟩ =>
    show win0_3.index t (1 : Fin 2) * 4096 + 1 * (j 1).val = (j 1).val
    rw [ht.2.2.2.2.2.2.2.1]; omega

/-- The bias window's block at every point is the whole fused bias row. -/
theorem blk4_eq (c : Dev nD) (t : Fin cfg0.N) (j : S1x4096.Idx) : iblk m c 4 t j = (V m c main_v3 : S1x4096.Idx → EReal) j := by
  have ht := idx_facts t
  show V m c main_v3 (((cfg0.win 4).blk t).view.emb j) = _
  refine congrArg _ (funext fun a => Fin.ext ?_)
  match a with
  | ⟨0, _⟩ =>
    show win0_4.index t (0 : Fin 2) * 1 + 1 * (j 0).val = (j 0).val
    rw [ht.2.2.2.2.2.2.2.2.1]; omega
  | ⟨1, _⟩ =>
    show win0_4.index t (1 : Fin 2) * 4096 + 1 * (j 1).val = (j 1).val
    rw [ht.2.2.2.2.2.2.2.2.2.1]; omega

theorem fusedW (c : Dev nD) (t : Fin cfg0.N) : FusedW (iblk m c 3 t) (m ((c : Thread nD τ).loc main_arg3)) (m ((c : Thread nD τ).loc main_arg5)) (m ((c : Thread nD τ).loc main_arg7)) (m ((c : Thread nD τ).loc main_arg9)) := fun k q =>
  ⟨(blk3_eq m c t _).trans (wcat_i m c k q), (blk3_eq m c t _).trans (wcat_f m c k q),
    (blk3_eq m c t _).trans (wcat_o m c k q), (blk3_eq m c t _).trans (wcat_g m c k q)⟩

theorem fusedB (c : Dev nD) (t : Fin cfg0.N) : FusedB (iblk m c 4 t) (m ((c : Thread nD τ).loc main_arg4)) (m ((c : Thread nD τ).loc main_arg6)) (m ((c : Thread nD τ).loc main_arg8)) (m ((c : Thread nD τ).loc main_arg10)) := fun q =>
  ⟨(blk4_eq m c t _).trans (bcat_i m c q), (blk4_eq m c t _).trans (bcat_f m c q),
    (blk4_eq m c t _).trans (bcat_o m c q), (blk4_eq m c t _).trans (bcat_g m c q)⟩

/-- What point `t` writes back to result window 5 is rows `256 t … 256 t + 255` of the specification's array. -/
theorem flushedH_eq (c : Dev nD) (t : Fin cfg0.N) :
    (dats m 0 c).flushed 5 t = ((cfg0.win 5).blk t).view.read (Elt Ideal) (hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  show (cfg0.win 5).cut (grid0.coords t) ((dats m 0 c).after 5 t) = _
  rw [after0_5]
  unfold outH
  rw [View.canon_unit_zero hz]
  simp only [View.ld_unit_zero (S := S256x1024) hz, View.ld_unit_zero (S := S2048x4096) hz, View.ld_unit_zero (S := S1x4096) hz]
  have ht := idx_facts t
  refine funext fun (j : S256x1024.Idx) => ?_
  obtain ⟨p, q, rfl⟩ : ∃ (p : Fin 256) (q : Fin 1024), j = ix2 p q := ⟨j 0, j 1, eq_ix2 j⟩
  refine (hidden_block (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
    (iblk m c 0 t) (iblk m c 1 t) (iblk m c 2 t) (iblk m c 3 t) (iblk m c 4 t) (256 * t.val) (rows_le t)
    (rows0 m c t) (rows1 m c t) (rows2 m c t) (fusedW m c t) (fusedB m c t) p q).trans ?_
  have e0 : (((cfg0.win 5).blk t).view.emb (ix2 p q)) 0 = (⟨256 * t.val + p.val, by have := t_lt t; have := p.isLt; omega⟩ : Fin 8192) :=
    Fin.ext (by
      show win0_5.index t (0 : Fin 2) * 256 + 1 * p.val = 256 * t.val + p.val
      rw [ht.2.2.2.2.2.2.2.2.2.2.1]; omega)
  have e1 : (((cfg0.win 5).blk t).view.emb (ix2 p q)) 1 = q :=
    Fin.ext (by
      show win0_5.index t (1 : Fin 2) * 1024 + 1 * q.val = q.val
      rw [ht.2.2.2.2.2.2.2.2.2.2.2.1]; omega)
  show _ = hiddenNew (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) ((((cfg0.win 5).blk t).view.emb (ix2 p q)) 0) ((((cfg0.win 5).blk t).view.emb (ix2 p q)) 1)
  rw [e0, e1]

/-- An index of the result array is in point `t`'s block iff each coordinate is in the block's range on its axis. -/
theorem mem_blk5 (t : Fin cfg0.N) (i : S8192x1024.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v4_0).slice (win0_5.rect t)).set ↔ _
  rw [View.set_slice_whole, Rect.mem_set_unit]
  exact Iff.rfl

/-- Every row is in some point's band: row `r` in band `r / 256`. -/
theorem cover5 (i : S8192x1024.Idx) : ∃ t : Fin cfg0.N, (cfg0.win 5).flush t = true ∧ i ∈ ((cfg0.win 5).blk t).view.set := by
  have hi0 : (i 0).val < 8192 := (i 0).isLt
  have hi1 : (i 1).val < 1024 := (i 1).isLt
  have hlt : (i 0).val / 256 < cfg0.N := by show _ < grid0.N; rw [N_0]; omega
  have ht := idx_facts ⟨(i 0).val / 256, hlt⟩
  refine ⟨⟨(i 0).val / 256, hlt⟩, flush0_5 _, ?_⟩
  rw [mem_blk5]
  intro a
  match a with
  | ⟨0, _⟩ =>
    show win0_5.index ⟨(i 0).val / 256, hlt⟩ (0 : Fin 2) * 256 ≤ (i 0).val ∧ (i 0).val < win0_5.index ⟨(i 0).val / 256, hlt⟩ (0 : Fin 2) * 256 + 256
    rw [ht.2.2.2.2.2.2.2.2.2.2.1]
    show (i 0).val / 256 * 256 ≤ (i 0).val ∧ (i 0).val < (i 0).val / 256 * 256 + 256
    omega
  | ⟨1, _⟩ =>
    show win0_5.index ⟨(i 0).val / 256, hlt⟩ (1 : Fin 2) * 1024 ≤ (i 1).val ∧ (i 1).val < win0_5.index ⟨(i 0).val / 256, hlt⟩ (1 : Fin 2) * 1024 + 1024
    rw [ht.2.2.2.2.2.2.2.2.2.2.2.1]
    omega

/-- The result array after the run is the specification's. -/
theorem finalH (c : Dev nD) : (dats m 0 c).arrAt 5 cfg0.N = hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (dats m 0 c).arrAt_eq_of_cover 5 (hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (fun t _ => flushedH_eq m c t) cover5

/-- What point `t` writes back to result window 6 is rows `256 t … 256 t + 255` of the specification's array. -/
theorem flushedC_eq (c : Dev nD) (t : Fin cfg0.N) :
    (dats m 0 c).flushed 6 t = ((cfg0.win 6).blk t).view.read (Elt Ideal) (cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10))) := by
  show (cfg0.win 6).cut (grid0.coords t) ((dats m 0 c).after 6 t) = _
  rw [after0_6]
  unfold outC
  rw [View.canon_unit_zero hz]
  simp only [View.ld_unit_zero (S := S256x1024) hz, View.ld_unit_zero (S := S2048x4096) hz, View.ld_unit_zero (S := S1x4096) hz]
  have ht := idx_facts t
  refine funext fun (j : S256x1024.Idx) => ?_
  obtain ⟨p, q, rfl⟩ : ∃ (p : Fin 256) (q : Fin 1024), j = ix2 p q := ⟨j 0, j 1, eq_ix2 j⟩
  refine (cell_block (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
    (iblk m c 0 t) (iblk m c 1 t) (iblk m c 2 t) (iblk m c 3 t) (iblk m c 4 t) (256 * t.val) (rows_le t)
    (rows0 m c t) (rows1 m c t) (rows2 m c t) (fusedW m c t) (fusedB m c t) p q).trans ?_
  have e0 : (((cfg0.win 6).blk t).view.emb (ix2 p q)) 0 = (⟨256 * t.val + p.val, by have := t_lt t; have := p.isLt; omega⟩ : Fin 8192) :=
    Fin.ext (by
      show win0_6.index t (0 : Fin 2) * 256 + 1 * p.val = 256 * t.val + p.val
      rw [ht.2.2.2.2.2.2.2.2.2.2.2.2.1]; omega)
  have e1 : (((cfg0.win 6).blk t).view.emb (ix2 p q)) 1 = q :=
    Fin.ext (by
      show win0_6.index t (1 : Fin 2) * 1024 + 1 * q.val = q.val
      rw [ht.2.2.2.2.2.2.2.2.2.2.2.2.2]; omega)
  show _ = cellNew (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) ((((cfg0.win 6).blk t).view.emb (ix2 p q)) 0) ((((cfg0.win 6).blk t).view.emb (ix2 p q)) 1)
  rw [e0, e1]

/-- An index of the result array is in point `t`'s block iff each coordinate is in the block's range on its axis. -/
theorem mem_blk6 (t : Fin cfg0.N) (i : S8192x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v4_1).slice (win0_6.rect t)).set ↔ _
  rw [View.set_slice_whole, Rect.mem_set_unit]
  exact Iff.rfl

/-- Every row is in some point's band: row `r` in band `r / 256`. -/
theorem cover6 (i : S8192x1024.Idx) : ∃ t : Fin cfg0.N, (cfg0.win 6).flush t = true ∧ i ∈ ((cfg0.win 6).blk t).view.set := by
  have hi0 : (i 0).val < 8192 := (i 0).isLt
  have hi1 : (i 1).val < 1024 := (i 1).isLt
  have hlt : (i 0).val / 256 < cfg0.N := by show _ < grid0.N; rw [N_0]; omega
  have ht := idx_facts ⟨(i 0).val / 256, hlt⟩
  refine ⟨⟨(i 0).val / 256, hlt⟩, flush0_6 _, ?_⟩
  rw [mem_blk6]
  intro a
  match a with
  | ⟨0, _⟩ =>
    show win0_6.index ⟨(i 0).val / 256, hlt⟩ (0 : Fin 2) * 256 ≤ (i 0).val ∧ (i 0).val < win0_6.index ⟨(i 0).val / 256, hlt⟩ (0 : Fin 2) * 256 + 256
    rw [ht.2.2.2.2.2.2.2.2.2.2.2.2.1]
    show (i 0).val / 256 * 256 ≤ (i 0).val ∧ (i 0).val < (i 0).val / 256 * 256 + 256
    omega
  | ⟨1, _⟩ =>
    show win0_6.index ⟨(i 0).val / 256, hlt⟩ (1 : Fin 2) * 1024 ≤ (i 1).val ∧ (i 1).val < win0_6.index ⟨(i 0).val / 256, hlt⟩ (1 : Fin 2) * 1024 + 1024
    rw [ht.2.2.2.2.2.2.2.2.2.2.2.2.2]
    omega

/-- The result array after the run is the specification's. -/
theorem finalC (c : Dev nD) : (dats m 0 c).arrAt 6 cfg0.N = cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) :=
  (dats m 0 c).arrAt_eq_of_cover 6 (cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10))) (fun t _ => flushedC_eq m c t) cover6

/-- The run, read: every weakly fair execution terminates without a fault, the first result is the new hidden state
    and the second the new cell state of the eleven argument arrays, and those end as they began. -/
theorem run : θ_run defs (onTc (τ := τ) (main (F := Ideal))) ⟨m, fun _ => 0, ρ⟩ fun r => ∀ c : Dev nD,
      r.2.mem ((c.tc : Thread nD τ).loc main_v4_0) = hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_v4_1) = cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨((h c).1 5).trans (finalH m c), ((h c).1 6).trans (finalC m c), kept m r h c⟩)
    (run_main m ρ)

end Cert.KernelIdeal.Cell

end
-- ==== Proof.CellRef.lean ====
/-
  The reference, stage by stage, is the cell of the specification. Its `[Z | H]` at `(r, k)` is the row
  concatenation; each gate's product-plus-bias at `(r, q)` is that gate's pre-activation; `1 / (1 + exp (-x))` with
  the constant one is the logistic function; and the last stages combine the gates as the specification does.
-/
import proofs.«125467_j9517647528292_2_alg».proof.Proof.Gen.ReferenceIdeal.Read
import proofs.«125467_j9517647528292_2_alg».proof.Proof.CellSpec
import Idealize.ShloMosaic.Lib.IdealHost

noncomputable section

namespace Cert.ReferenceIdeal.CellRef

open Cert.ReferenceIdeal Cert.ReferenceIdeal.Gen Cert.ReferenceIdeal.Read Cert.LstmCell
open Idealize.ShloMosaic Idealize.ShloMosaic.ValueIdx
open scoped BigOperators

/-- `[Z | H]` at row `r`, input `k`. -/
theorem refCat_apply (x0 x1 : Act) (r : Fin 8192) (k : Fin 2048) :
    val_main_v0 (F := Ideal) x0 x1 (ix2 r k) = rowCat (fun k' => x0 (ix2 r k')) (fun k' => x1 (ix2 r k')) k := by
  unfold val_main_v0 rowCat
  split
  · rename_i h
    exact concatenate_pair_apply_left 1 x0 x1 _ (ix2 r k) rfl (ix2 r ⟨k.val, h⟩) (fun b => by
      match b with
      | ⟨0, _⟩ => rfl
      | ⟨1, _⟩ => rfl)
  · rename_i h
    exact concatenate_pair_apply_right 1 x0 x1 _ (ix2 r k) rfl rfl (ix2 r ⟨k.val - 1024, by have := k.isLt; omega⟩) (fun b hb => by
      match b with
      | ⟨0, _⟩ => rfl
      | ⟨1, _⟩ => exact absurd rfl hb) (by show (k.val - 1024) + 1024 = k.val; omega)

/-- Gate i: the product with its weight plus its bias, at `(r, q)`, is the gate's pre-activation. -/
theorem pre_i (x0 x1 : Act) (W : Wgt) (b : Bias) (r : Fin 8192) (q : Fin 1024) :
    val_main_v4 (F := Ideal) x0 x1 W b (ix2 r q) = gatePre x0 x1 W b r q := by
  have eL : ∀ k, lidx_main_v1 (ix2 r q) k = ix2 r k := fun k => funext fun a => Fin.ext (by
    match a with
    | ⟨0, _⟩ => rfl
    | ⟨1, _⟩ => rfl)
  have eR : ∀ k, ridx_main_v1 (ix2 r q) k = ix2 k q := fun k => funext fun a => Fin.ext (by
    match a with
    | ⟨0, _⟩ => rfl
    | ⟨1, _⟩ => rfl)
  have eB : idx_main_v2 (idx_main_v3 (ix2 r q)) = ix1 q := funext fun a => Fin.ext (by
    match a with
    | ⟨0, _⟩ => rfl)
  rw [val_main_v4_apply, val_main_v1_apply, val_main_v3_apply, val_main_v2_apply, eB]
  unfold gatePre
  show _ + _ = _ + _
  congr 1
  refine Finset.sum_congr rfl fun k _ => ?_
  rw [eL, eR, refCat_apply]

/-- Gate i: one over one plus the exponential of the negated pre-activation is its logistic. -/
theorem sig_i (x0 x1 : Act) (W : Wgt) (b : Bias) (r : Fin 8192) (q : Fin 1024) :
    val_main_v10 (F := Ideal) x0 x1 W b (ix2 r q) = Ideal.logistic (gatePre x0 x1 W b r q) := by
  rw [val_main_v10_apply, val_main_v9_apply, val_main_cst_0_apply, val_main_v8_apply, val_main_v7_apply,
    val_main_cst_apply, val_main_v6_apply, val_main_v5_apply, pre_i]
  show Ideal.div (Ideal.ofBits .f32 0x3F800000#32) (Ideal.ofBits .f32 0x3F800000#32 + Ideal.exp (-(gatePre x0 x1 W b r q))) = _
  rw [Ideal.ofBits_one_f32]
  rfl

/-- Gate f: the product with its weight plus its bias, at `(r, q)`, is the gate's pre-activation. -/
theorem pre_f (x0 x1 : Act) (W : Wgt) (b : Bias) (r : Fin 8192) (q : Fin 1024) :
    val_main_v14 (F := Ideal) x0 x1 W b (ix2 r q) = gatePre x0 x1 W b r q := by
  have eL : ∀ k, lidx_main_v11 (ix2 r q) k = ix2 r k := fun k => funext fun a => Fin.ext (by
    match a with
    | ⟨0, _⟩ => rfl
    | ⟨1, _⟩ => rfl)
  have eR : ∀ k, ridx_main_v11 (ix2 r q) k = ix2 k q := fun k => funext fun a => Fin.ext (by
    match a with
    | ⟨0, _⟩ => rfl
    | ⟨1, _⟩ => rfl)
  have eB : idx_main_v12 (idx_main_v13 (ix2 r q)) = ix1 q := funext fun a => Fin.ext (by
    match a with
    | ⟨0, _⟩ => rfl)
  rw [val_main_v14_apply, val_main_v11_apply, val_main_v13_apply, val_main_v12_apply, eB]
  unfold gatePre
  show _ + _ = _ + _
  congr 1
  refine Finset.sum_congr rfl fun k _ => ?_
  rw [eL, eR, refCat_apply]

/-- Gate f: one over one plus the exponential of the negated pre-activation is its logistic. -/
theorem sig_f (x0 x1 : Act) (W : Wgt) (b : Bias) (r : Fin 8192) (q : Fin 1024) :
    val_main_v20 (F := Ideal) x0 x1 W b (ix2 r q) = Ideal.logistic (gatePre x0 x1 W b r q) := by
  rw [val_main_v20_apply, val_main_v19_apply, val_main_cst_2_apply, val_main_v18_apply, val_main_v17_apply,
    val_main_cst_1_apply, val_main_v16_apply, val_main_v15_apply, pre_f]
  show Ideal.div (Ideal.ofBits .f32 0x3F800000#32) (Ideal.ofBits .f32 0x3F800000#32 + Ideal.exp (-(gatePre x0 x1 W b r q))) = _
  rw [Ideal.ofBits_one_f32]
  rfl

/-- Gate o: the product with its weight plus its bias, at `(r, q)`, is the gate's pre-activation. -/
theorem pre_o (x0 x1 : Act) (W : Wgt) (b : Bias) (r : Fin 8192) (q : Fin 1024) :
    val_main_v24 (F := Ideal) x0 x1 W b (ix2 r q) = gatePre x0 x1 W b r q := by
  have eL : ∀ k, lidx_main_v21 (ix2 r q) k = ix2 r k := fun k => funext fun a => Fin.ext (by
    match a with
    | ⟨0, _⟩ => rfl
    | ⟨1, _⟩ => rfl)
  have eR : ∀ k, ridx_main_v21 (ix2 r q) k = ix2 k q := fun k => funext fun a => Fin.ext (by
    match a with
    | ⟨0, _⟩ => rfl
    | ⟨1, _⟩ => rfl)
  have eB : idx_main_v22 (idx_main_v23 (ix2 r q)) = ix1 q := funext fun a => Fin.ext (by
    match a with
    | ⟨0, _⟩ => rfl)
  rw [val_main_v24_apply, val_main_v21_apply, val_main_v23_apply, val_main_v22_apply, eB]
  unfold gatePre
  show _ + _ = _ + _
  congr 1
  refine Finset.sum_congr rfl fun k _ => ?_
  rw [eL, eR, refCat_apply]

/-- Gate o: one over one plus the exponential of the negated pre-activation is its logistic. -/
theorem sig_o (x0 x1 : Act) (W : Wgt) (b : Bias) (r : Fin 8192) (q : Fin 1024) :
    val_main_v30 (F := Ideal) x0 x1 W b (ix2 r q) = Ideal.logistic (gatePre x0 x1 W b r q) := by
  rw [val_main_v30_apply, val_main_v29_apply, val_main_cst_4_apply, val_main_v28_apply, val_main_v27_apply,
    val_main_cst_3_apply, val_main_v26_apply, val_main_v25_apply, pre_o]
  show Ideal.div (Ideal.ofBits .f32 0x3F800000#32) (Ideal.ofBits .f32 0x3F800000#32 + Ideal.exp (-(gatePre x0 x1 W b r q))) = _
  rw [Ideal.ofBits_one_f32]
  rfl

/-- Gate g: the product with its weight plus its bias, at `(r, q)`, is the gate's pre-activation. -/
theorem pre_g (x0 x1 : Act) (W : Wgt) (b : Bias) (r : Fin 8192) (q : Fin 1024) :
    val_main_v34 (F := Ideal) x0 x1 W b (ix2 r q) = gatePre x0 x1 W b r q := by
  have eL : ∀ k, lidx_main_v31 (ix2 r q) k = ix2 r k := fun k => funext fun a => Fin.ext (by
    match a with
    | ⟨0, _⟩ => rfl
    | ⟨1, _⟩ => rfl)
  have eR : ∀ k, ridx_main_v31 (ix2 r q) k = ix2 k q := fun k => funext fun a => Fin.ext (by
    match a with
    | ⟨0, _⟩ => rfl
    | ⟨1, _⟩ => rfl)
  have eB : idx_main_v32 (idx_main_v33 (ix2 r q)) = ix1 q := funext fun a => Fin.ext (by
    match a with
    | ⟨0, _⟩ => rfl)
  rw [val_main_v34_apply, val_main_v31_apply, val_main_v33_apply, val_main_v32_apply, eB]
  unfold gatePre
  show _ + _ = _ + _
  congr 1
  refine Finset.sum_congr rfl fun k _ => ?_
  rw [eL, eR, refCat_apply]

/-- The candidate: tanh of gate g's pre-activation. -/
theorem cand_g (x0 x1 : Act) (W : Wgt) (b : Bias) (r : Fin 8192) (q : Fin 1024) :
    val_main_v35 (F := Ideal) x0 x1 W b (ix2 r q) = Ideal.tanh (gatePre x0 x1 W b r q) := by
  rw [val_main_v35_apply, pre_g]
  rfl

/-- The reference's second result is the new cell state. -/
theorem cell_eq (x0 x1 x2 : Act) (x3 : Wgt) (x4 : Bias) (x5 : Wgt) (x6 : Bias) (x9 : Wgt) (x10 : Bias) :
    val_main_v38 (F := Ideal) x0 x1 x2 x3 x4 x5 x6 x9 x10 = cellArr x0 x1 x2 x3 x4 x5 x6 x9 x10 := by
  funext i
  obtain ⟨r, q, rfl⟩ : ∃ (r : Fin 8192) (q : Fin 1024), i = ix2 r q := ⟨i 0, i 1, eq_ix2 i⟩
  rw [val_main_v38_apply, val_main_v36_apply, val_main_v37_apply, sig_f, sig_i, cand_g]
  rfl

/-- The reference's first result is the new hidden state. -/
theorem hidden_eq (x0 x1 x2 : Act) (x3 : Wgt) (x4 : Bias) (x5 : Wgt) (x6 : Bias) (x7 : Wgt) (x8 : Bias) (x9 : Wgt) (x10 : Bias) :
    val_main_v40 (F := Ideal) x0 x1 x2 x3 x4 x5 x6 x7 x8 x9 x10 = hiddenArr x0 x1 x2 x3 x4 x5 x6 x7 x8 x9 x10 := by
  funext i
  obtain ⟨r, q, rfl⟩ : ∃ (r : Fin 8192) (q : Fin 1024), i = ix2 r q := ⟨i 0, i 1, eq_ix2 i⟩
  rw [val_main_v40_apply, val_main_v39_apply, sig_o, cell_eq]
  rfl

end Cert.ReferenceIdeal.CellRef

end
-- ==== Proof.lean ====
/-
  The certificate of one LSTM cell step. Both programs take a batch `Z` of 8192 rows of 1024 inputs, the previous
  hidden and cell states `H`, `C` (8192 × 1024 each), and for each of four gates a 2048 × 1024 weight and a bias of
  length 1024; both return the new hidden state and the new cell state,
    pre_g r q = Σₖ [Z r | H r] k · W_g k q + b_g q,
    c' = σ(pre_f) · C + σ(pre_i) · tanh(pre_cand),   h' = σ(pre_o) · tanh(c'),   σ x = 1 / (1 + e⁻ˣ).
  The reference forms `[Z | H]` once and multiplies it by each gate's weight separately. The kernel joins the four
  weights side by side into one 2048 × 4096 matrix (narrowed to bf16) and the four biases into one row, and at each of
  32 grid points multiplies 256 rows of `[Z | H]` (narrowed to bf16) by the fused matrix, adds the fused bias, and
  splits the 4096 columns back into the four gates.
  On the extended reals a change of float format is the identity, a matrix product is the plain sum over the 2048
  inputs whichever way it is tiled, and `logistic` is by definition the quotient the reference spells out; so column
  `1024 g + q` of the fused product is gate `g`'s pre-activation and the two programs compute one function. No
  law that needs finite operands is used, so the precondition is never opened.
  Each program's frame (it terminates, faults nowhere, leaves its arguments unchanged) is, for the two kernel
  programs, the launch run at 32 points with the body's triple at a symbolic point, and for the reference its run
  as a straight line of host operations. The ideal pass rewrote nothing, so there is nothing to preserve.
-/
import proofs.«125467_j9517647528292_2_alg».proof.Defs
import proofs.«125467_j9517647528292_2_alg».proof.Proof.Gen.Kernel
import proofs.«125467_j9517647528292_2_alg».proof.Proof.Gen.KernelIdeal
import proofs.«125467_j9517647528292_2_alg».proof.Proof.Gen.ReferenceIdeal
import proofs.«125467_j9517647528292_2_alg».proof.Proof.Gen.Pre_finite_inputs
import proofs.«125467_j9517647528292_2_alg».proof.Proof.Gen.ReferenceIdeal.Run
import proofs.«125467_j9517647528292_2_alg».proof.Proof.Gen.ReferenceIdeal.Read
import proofs.«125467_j9517647528292_2_alg».proof.Proof.CellBits
import proofs.«125467_j9517647528292_2_alg».proof.Proof.CellArrays
import proofs.«125467_j9517647528292_2_alg».proof.Proof.CellRef

noncomputable section

namespace Cert.Proof

open Idealize.ShloMosaic Idealize.ShloMosaic.TcCoe Idealize.SL.Sem

/-- The kernel as printed, at the word-level instance: the launch run. -/
theorem frame_kernel : Cert.frame_Kernel := fun m ρ _ => Cert.Kernel.Cell.frame m ρ

/-- The idealized kernel: the same run at the extended reals. -/
theorem frame_kernelIdeal : Cert.frame_KernelIdeal := fun m ρ _ => Cert.KernelIdeal.Cell.frame m ρ

/-- The idealized reference: its run as a line of host operations, the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- From memories that agree on the eleven arguments, both programs end with the new hidden state and the new cell
    state of those arguments: the kernel by its value run, the reference because its stages compose to the same
    specification. -/
theorem algebraic : Cert.algebraic_KernelIdeal_ReferenceIdeal := by
  intro m ρ m' ρ' _ hagree
  refine ⟨_, _, Cert.KernelIdeal.Cell.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10⟩ := hagree c
    rw [Cert.ReferenceIdeal.Read.val_main_v40_eq, Cert.ReferenceIdeal.CellRef.hidden_eq, a0, a1, a2, a3, a4, a5, a6, a7, a8, a9, a10]
  · obtain ⟨a0, a1, a2, a3, a4, a5, a6, a7, a8, a9, a10⟩ := hagree c
    rw [Cert.ReferenceIdeal.Read.val_main_v38_eq, Cert.ReferenceIdeal.CellRef.cell_eq, a0, a1, a2, a3, a4, a5, a6, a9, a10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
